-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4782969x8 : Shape := ⟨2, ![4782969, 8]⟩
abbrev S_ : Shape := ⟨0, ![]⟩

class Facts : Prop where
  bcast_S_S4782969x8 : S_.BroadcastsInDim S4782969x8 (![] : Fin 0 → Fin S4782969x8.rank)
  reducesTo_S4782969x8_S_d0_1 : S4782969x8.ReducesTo [0, 1] S_
  h_S_ : 0 < S_.numel

variable [Facts]

def fn {F : FTy → Type} [FloatOps F] (main_arg0 : FVec F S4782969x8 .f32) : IVec S_ 1 :=
  let main_v0 : FVec F S4782969x8 .f32 := Host.absf main_arg0
  let main_cst : FVec F S_ .f32 := constant S_ .f32 0x7F800000#32
  let main_v1 : FVec F S4782969x8 .f32 := broadcastInDim S4782969x8 ![] bcast_S_S4782969x8 main_cst
  let main_v2 : IVec S4782969x8 1 := cmpf .olt main_v0 main_v1
  let main_c : IVec S_ 1 := constantI S_ 1 1#1
  let main_v3 : IVec S_ 1 := (fun x v => Host.reduce IntOp.andi x v reducesTo_S4782969x8_S_d0_1 h_S_) main_v2 main_c
  main_v3
-- ==== Kernel.lean ====
abbrev S4782969x8 : Shape := ⟨2, ![4782969, 8]⟩
abbrev S27x3x472392 : Shape := ⟨3, ![27, 3, 472392]⟩
abbrev S1x3x472392 : Shape := ⟨3, ![1, 3, 472392]⟩
abbrev S1x1x472392 : Shape := ⟨3, ![1, 1, 472392]⟩
abbrev S472392 : Shape := ⟨1, ![472392]⟩

abbrev nBuf : Space → Nat
  | .hbm => 4
  | .vmem => 4
  | .smem => 0
  | _ => 0

abbrev bufTy : (tb : Table) → Fin (tcTables nBuf tb) → BufTy
  | .hbm, ⟨0, _⟩ => ⟨S4782969x8, .f32⟩
  | .hbm, ⟨1, _⟩ => ⟨S27x3x472392, .f32⟩
  | .hbm, ⟨2, _⟩ => ⟨S27x3x472392, .f32⟩
  | .hbm, ⟨3, _⟩ => ⟨S4782969x8, .f32⟩
  | .local _ .vmem, ⟨0, _⟩ => ⟨S1x3x472392, .f32⟩
  | .local _ .vmem, ⟨1, _⟩ => ⟨S1x3x472392, .f32⟩
  | .local _ .vmem, ⟨2, _⟩ => ⟨S1x3x472392, .f32⟩
  | .local _ .vmem, ⟨3, _⟩ => ⟨S1x3x472392, .f32⟩
  | _, _ => ⟨S4782969x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![27], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x472392 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x472392 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S4782969x8_S27x3x472392 : S4782969x8.ShapeCasts S27x3x472392
  inb_S1x3x472392_S1x1x472392_0_2_0 : ∀ a, (![0, 2, 0] : Fin 3 → Nat) a + S1x1x472392.size a ≤ S1x3x472392.size a
  h_S1x1x472392 : 0 < S1x1x472392.numel
  shapeCasts_S1x1x472392_S472392 : S1x1x472392.ShapeCasts S472392
  inb_S1x3x472392_S1x1x472392_0_0_0 : ∀ a, (![0, 0, 0] : Fin 3 → Nat) a + S1x1x472392.size a ≤ S1x3x472392.size a
  shapeCasts_S472392_S1x1x472392 : S472392.ShapeCasts S1x1x472392
  inb_S1x3x472392_S1x1x472392_0_1_0 : ∀ a, (![0, 1, 0] : Fin 3 → Nat) a + S1x1x472392.size a ≤ S1x3x472392.size a
  shapeCasts_S27x3x472392_S4782969x8 : S27x3x472392.ShapeCasts S4782969x8
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x472392.size a ≤ S27x3x472392.size a
  hwx0_0 : ∀ i : grid0.Coords, EltTy.bits .f32 = 32 ∨ (Rect.block (s := S27x3x472392) S1x3x472392.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x472392.size a ≤ S27x3x472392.size a
  hwx0_1 : ∀ i : grid0.Coords, EltTy.bits .f32 = 32 ∨ (Rect.block (s := S27x3x472392) S1x3x472392.size (cc0_transform_1 i) (hinb0_1 i)).WholeWords (EltTy.packing .f32)

variable [Facts₀]

abbrev win0_0 : Pipeline.Window sig grid0 :=
  Pipeline.Window.ofSpec (Memref.whole main_v0) S1x3x472392.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x3x472392.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4782969x8 : Shape := ⟨2, ![4782969, 8]⟩
abbrev S27x3x59049x8 : Shape := ⟨4, ![27, 3, 59049, 8]⟩
abbrev S27x1x59049x8 : Shape := ⟨4, ![27, 1, 59049, 8]⟩
abbrev S27x2x59049x8 : Shape := ⟨4, ![27, 2, 59049, 8]⟩

abbrev nBuf : Space → Nat
  | .hbm => 6
  | .vmem => 0
  | .smem => 0
  | _ => 0

abbrev bufTy : (tb : Table) → Fin (tcTables nBuf tb) → BufTy
  | .hbm, ⟨0, _⟩ => ⟨S4782969x8, .f32⟩
  | .hbm, ⟨1, _⟩ => ⟨S27x3x59049x8, .f32⟩
  | .hbm, ⟨2, _⟩ => ⟨S27x1x59049x8, .f32⟩
  | .hbm, ⟨3, _⟩ => ⟨S27x2x59049x8, .f32⟩
  | .hbm, ⟨4, _⟩ => ⟨S27x3x59049x8, .f32⟩
  | .hbm, ⟨5, _⟩ => ⟨S4782969x8, .f32⟩
  | _, _ => ⟨S4782969x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_v0 : Ref sig .tc := ⟨.hbm, 2, rfl⟩
abbrev main_call0_v1 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  shapeCasts_S4782969x8_S27x3x59049x8 : S4782969x8.ShapeCasts S27x3x59049x8
  slices_S27x3x59049x8_S27x1x59049x8_0_2_0_0 : S27x3x59049x8.Slices ![0, 2, 0, 0] S27x1x59049x8
  slices_S27x3x59049x8_S27x2x59049x8_0_0_0_0 : S27x3x59049x8.Slices ![0, 0, 0, 0] S27x2x59049x8
  concatenates_S27x1x59049x8_S27x2x59049x8_S27x3x59049x8_d1 : Shape.Concatenates [S27x1x59049x8, S27x2x59049x8] S27x3x59049x8 1
  shapeCasts_S27x3x59049x8_S4782969x8 : S27x3x59049x8.ShapeCasts S4782969x8

variable [Facts₀]

class Facts : Prop extends Facts₀ where

variable [Facts]
-- ==== Proof.RollSpec.lean ====
/-
  The specification both programs meet. The argument is a matrix of 3^14 = 4782969 rows and 8 columns. A row number
  r is read in base 3 as fourteen digits; writing r = l * 177147 + d * 59049 + q with l < 27, d < 3 and q < 59049
  (177147 = 3^11, 59049 = 3^10) singles out the digit d of weight 3^10. The result's row r is the argument's row with
  the same l and q and the digit d replaced by d - 1 modulo 3, written (d + 2) % 3 so that no subtraction on the
  naturals occurs; the column is kept. No arithmetic is done on the entries, so the statement holds for entries of
  any type.
-/
import Idealize.ShloMosaic.Lib.ValueIdx

noncomputable section

namespace Cert.Roll

open Idealize.ShloMosaic Idealize.ShloMosaic.ValueIdx

/-- The row the result's row `r` is a copy of: the digit of weight 3^10 moved one step back, cyclically. -/
def srcRow (r : Nat) : Nat := r / 177147 * 177147 + (r / 59049 % 3 + 2) % 3 * 59049 + r % 59049

/-- The source row of a row of the matrix is a row of the matrix. -/
theorem srcRow_lt {r : Nat} (h : r < 4782969) : srcRow r < 4782969 := by
  unfold srcRow; omega

/-- The entry of the argument that the result's entry `i` is a copy of: source row, same column. -/
def src (i : (⟨2, ![4782969, 8]⟩ : Shape).Idx) : (⟨2, ![4782969, 8]⟩ : Shape).Idx :=
  ix2 ⟨srcRow (i 0).val, srcRow_lt (idx2_lt0 i)⟩ (i 1)

/-- The result as one function of the argument: entry `i` is the argument's entry `src i`. -/
def G {α : Type} (x : (⟨2, ![4782969, 8]⟩ : Shape).Idx → α) : (⟨2, ![4782969, 8]⟩ : Shape).Idx → α :=
  fun i => x (src i)

theorem G_apply {α : Type} (x : (⟨2, ![4782969, 8]⟩ : Shape).Idx → α) (i : (⟨2, ![4782969, 8]⟩ : Shape).Idx) :
    G x i = x (src i) := rfl

end Cert.Roll

end
-- ==== Proof.RefValue.lean ====
/-
  The reference at an index. It views the argument as an array of extents 27 × 3 × 59049 × 8 (so that the row
  r = l * 177147 + d * 59049 + q becomes the triple (l, d, q)), cuts the plane d = 2 and the two planes d = 0, 1 out
  of it, joins them in that order along the axis of d, and views the outcome as a matrix again. The joined array at
  (l, d, q, b) is therefore the viewed argument at (l, (d + 2) % 3, q, b): for d = 0 the entry comes from the first
  piece, the plane 2, and for d = 1, 2 from the second piece at d - 1. Read through the two changes of view this is
  the specification.
-/
import proofs.«109570_j6992206758256_1_alg».proof.Proof.Gen.ReferenceIdeal.Read
import proofs.«109570_j6992206758256_1_alg».proof.Proof.RollSpec

noncomputable section

namespace Cert.ReferenceIdeal.RefValue

open Cert.ReferenceIdeal Cert.ReferenceIdeal.Read Idealize.ShloMosaic Idealize.ShloMosaic.ValueIdx

variable {F : FTy → Type} [FloatOps F]

/-- The index of the four-axis view that the joined array's index `j` is a copy of: the coordinate on the axis of
    extent 3 moved one step back, cyclically. -/
def back (j : S27x3x59049x8.Idx) : S27x3x59049x8.Idx :=
  ix4 (j 0) ⟨((j 1).val + 2) % 3, Nat.mod_lt _ (by decide)⟩ (j 2) (j 3)

/-- The joined array at an index is the four-axis view of the argument at the index moved back. -/
theorem joined_apply (x0 : (⟨S4782969x8, .f32⟩ : BufTy).Contents (Elt F)) (j : S27x3x59049x8.Idx) :
    val_main_v1 (F := F) x0 j = val_main_v0 (F := F) x0 (back j) := by
  unfold val_main_v1
  have hj1 : (j 1).val < 3 := (j 1).isLt
  by_cases h : (j 1).val < 1
  · -- the coordinate is 0: the first piece, the plane 2
    refine (concatenate_pair_apply_left (s₁ := S27x1x59049x8) (s₂ := S27x2x59049x8) (1 : Fin 4) _ _ _ j rfl
      (ix4 (j 0) (⟨0, by decide⟩ : Fin 1) (j 2) (j 3)) (fun b => match b with
        | ⟨0, _⟩ => rfl
        | ⟨1, _⟩ => by show 0 = (j 1).val; omega
        | ⟨2, _⟩ => rfl
        | ⟨3, _⟩ => rfl)).trans ?_
    rw [val_main_call0_v0_apply]
    refine congrArg (val_main_v0 (F := F) x0) (funext fun a => Fin.ext ?_)
    match a with
    | ⟨0, _⟩ => rfl
    | ⟨1, _⟩ => show 2 + 0 = ((j 1).val + 2) % 3; omega
    | ⟨2, _⟩ => rfl
    | ⟨3, _⟩ => rfl
  · -- the coordinate is 1 or 2: the second piece, one plane earlier
    refine (concatenate_pair_apply_right (s₁ := S27x1x59049x8) (s₂ := S27x2x59049x8) (1 : Fin 4) _ _ _ j rfl rfl
      (ix4 (j 0) (⟨(j 1).val - 1, by omega⟩ : Fin 2) (j 2) (j 3)) (fun b hb => match b, hb with
        | ⟨0, _⟩, _ => rfl
        | ⟨1, _⟩, hb => absurd rfl hb
        | ⟨2, _⟩, _ => rfl
        | ⟨3, _⟩, _ => rfl)
      (by show (j 1).val - 1 + 1 = (j 1).val; omega)).trans ?_
    rw [val_main_call0_v1_apply]
    refine congrArg (val_main_v0 (F := F) x0) (funext fun a => Fin.ext ?_)
    match a with
    | ⟨0, _⟩ => rfl
    | ⟨1, _⟩ => show (j 1).val - 1 = ((j 1).val + 2) % 3; omega
    | ⟨2, _⟩ => rfl
    | ⟨3, _⟩ => rfl

/-- The reference's result is the specification of its argument. -/
theorem result_eq (x0 : (⟨S4782969x8, .f32⟩ : BufTy).Contents (Elt F)) :
    val_main_v2 (F := F) x0 = Cert.Roll.G x0 := by
  funext i
  rw [val_main_v2_apply, joined_apply, val_main_v0_apply, Cert.Roll.G_apply]
  refine congrArg x0 (funext fun a => Fin.ext ?_)
  have h0 : (i 0).val < 4782969 := (i 0).isLt
  have h1 : (i 1).val < 8 := (i 1).isLt
  match a with
  | ⟨0, _⟩ =>
    show (((((i 0).val * 8 + (i 1).val) / 1417176 * 3 + (((i 0).val * 8 + (i 1).val) / 472392 % 3 + 2) % 3) * 59049
        + ((i 0).val * 8 + (i 1).val) / 8 % 59049) * 8 + ((i 0).val * 8 + (i 1).val) % 8) / 8 = Cert.Roll.srcRow (i 0).val
    unfold Cert.Roll.srcRow; omega
  | ⟨1, _⟩ =>
    show (((((i 0).val * 8 + (i 1).val) / 1417176 * 3 + (((i 0).val * 8 + (i 1).val) / 472392 % 3 + 2) % 3) * 59049
        + ((i 0).val * 8 + (i 1).val) / 8 % 59049) * 8 + ((i 0).val * 8 + (i 1).val) % 8) % 8 = (i 1).val
    omega

end Cert.ReferenceIdeal.RefValue

end
-- ==== Proof.KernelValue.lean ====
/-
  The kernel at an index. The host first views the argument as an array of extents 27 × 3 × 472392 (the row
  r = l * 177147 + d * 59049 + q and the column b become the triple (l, d, q * 8 + b)). The launch has one grid point
  per l; the point's block is the slab l of extents 1 × 3 × 472392, and the body copies the slab's row 2 to the
  result's row 0, row 0 to row 1 and row 1 to row 2: the result's slab at (0, d, k) is the argument's slab at
  (0, (d + 2) % 3, k). The 27 slabs tile the array, so the array the launch leaves is the viewed argument with the
  middle coordinate moved one step back, cyclically, and the host's last change of view turns it into the matrix of
  the specification.
-/
import proofs.«109570_j6992206758256_1_alg».proof.Proof.Gen.KernelIdeal.Frame
import proofs.«109570_j6992206758256_1_alg».proof.Proof.RollSpec
import Idealize.ShloMosaic.Lib.Pipeline.Value
import Idealize.ShloMosaic.Lib.StableHlo.Run

set_option maxRecDepth 16384

noncomputable section

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]

/-! ## One slab -/

/-- A slab's index with the coordinate on the axis of extent 3 moved one step back, cyclically. -/
def backB (y : S1x3x472392.Idx) : S1x3x472392.Idx :=
  ix3 (y 0) ⟨((y 1).val + 2) % 3, Nat.mod_lt _ (by decide)⟩ (y 2)

/-- Each stored row is the loaded row itself: the body flattens it to one axis and restores the two unit axes. -/
theorem pay1_id (v : Vec F S1x1x472392 .f32) : k0_pay1 v = v := by
  unfold k0_pay1; exact shapeCast_shapeCast v _ _
theorem pay2_id (v : Vec F S1x1x472392 .f32) : k0_pay2 v = v := by
  unfold k0_pay2; exact shapeCast_shapeCast v _ _
theorem pay3_id (v : Vec F S1x1x472392 .f32) : k0_pay3 v = v := by
  unfold k0_pay3; exact shapeCast_shapeCast v _ _

/-- What the body leaves in the result's slab: the argument's slab read at the index moved back. -/
theorem out_slab (x0 : Vec F S1x3x472392 .f32) : out0_1 x0 = fun y => x0 (backB y) := by
  funext y
  unfold out0_1
  refine View.canon_apply_of_pieces (fun y => x0 (backB y)) _ ?_ y (cover0_1 _ _ _ y)
  intro p hp x
  simp only [List.mem_cons, List.mem_nil_iff, or_false] at hp
  rcases hp with rfl | rfl | rfl
  · -- the store to row 2 holds the load of row 1
    show k0_pay3 (View.ld x0 r0_2) x = x0 (backB (r0_0.emb x))
    rw [pay3_id]
    refine congrArg x0 (funext fun a => Fin.ext ?_)
    have hx : (x 1).val < 1 := (x 1).isLt
    match a with
    | ⟨0, _⟩ => rfl
    | ⟨1, _⟩ => show 1 + 1 * (x 1).val = (2 + 1 * (x 1).val + 2) % 3; omega
    | ⟨2, _⟩ => rfl
  · -- the store to row 1 holds the load of row 0
    show k0_pay2 (View.ld x0 r0_1) x = x0 (backB (r0_2.emb x))
    rw [pay2_id]
    refine congrArg x0 (funext fun a => Fin.ext ?_)
    have hx : (x 1).val < 1 := (x 1).isLt
    match a with
    | ⟨0, _⟩ => rfl
    | ⟨1, _⟩ => show 0 + 1 * (x 1).val = (1 + 1 * (x 1).val + 2) % 3; omega
    | ⟨2, _⟩ => rfl
  · -- the store to row 0 holds the load of row 2
    show k0_pay1 (View.ld x0 r0_0) x = x0 (backB (r0_1.emb x))
    rw [pay1_id]
    refine congrArg x0 (funext fun a => Fin.ext ?_)
    have hx : (x 1).val < 1 := (x 1).isLt
    match a with
    | ⟨0, _⟩ => rfl
    | ⟨1, _⟩ => show 2 + 1 * (x 1).val = (0 + 1 * (x 1).val + 2) % 3; omega
    | ⟨2, _⟩ => rfl

/-! ## The array the launch leaves -/

variable (m : (ℓ : Loc nD τ sig) → Buf (Elt F) ℓ) (ρ : Dev nD → PrngReg)

/-- An index of the three-axis view with the middle coordinate moved one step back, cyclically. -/
def backA (i : S27x3x472392.Idx) : S27x3x472392.Idx :=
  ix3 (i 0) ⟨((i 1).val + 2) % 3, Nat.mod_lt _ (by decide)⟩ (i 2)

/-- The launched array as one function of the array the launch finds: every entry read at the index moved back. -/
def K (A : S27x3x472392.Idx → Elt F .f32) : S27x3x472392.Idx → Elt F .f32 := fun i => A (backA i)

/-- The two windows' blocks at a grid point are the same slab: both index maps send the point to (l, 0, 0), with
    l the point's one coordinate, below 27. -/
theorem idx_facts : ∀ t : Fin cfg0.N, win0_0.index t (0 : Fin 3) = win0_1.index t (0 : Fin 3)
    ∧ win0_0.index t (1 : Fin 3) = 0 ∧ win0_0.index t (2 : Fin 3) = 0
    ∧ win0_1.index t (1 : Fin 3) = 0 ∧ win0_1.index t (2 : Fin 3) = 0
    ∧ win0_1.index t (0 : Fin 3) ≤ 26 :=
  (by decide +kernel : ∀ t : Fin grid0.N, _)

/-- Every slab is some point's block. -/
theorem idx_onto : ∀ q : Fin 27, ∃ t : Fin cfg0.N, win0_1.index t = ![q.val, 0, 0] :=
  (by decide +kernel : ∀ q : Fin 27, ∃ t : Fin grid0.N, win0_1.index t = ![q.val, 0, 0])

/-- What a grid point writes back is its slab of `K` of the array the launch finds. -/
theorem flushed_eq (c : Dev nD) (t : Fin cfg0.N) :
    (dats m 0 c).flushed 1 t = ((cfg0.win 1).blk t).view.read (Elt F) (K (V m c main_v0)) := by
  show (cfg0.win 1).cut (grid0.coords t) ((dats m 0 c).after 1 t) = _
  rw [after0_1, out_slab (iblk m c 0 t)]
  obtain ⟨e0, e1, e2, e3, e4, e5⟩ := idx_facts t
  funext y
  show V m c main_v0 (((cfg0.win 0).blk t).view.emb (backB y)) = V m c main_v0 (backA (((cfg0.win 1).blk t).view.emb y))
  refine congrArg (V m c main_v0) (funext fun a => Fin.ext ?_)
  have hy : (y 1).val < 3 := (y 1).isLt
  match a with
  | ⟨0, _⟩ =>
    show win0_0.index t (0 : Fin 3) * 1 + 1 * (y 0).val = win0_1.index t (0 : Fin 3) * 1 + 1 * (y 0).val
    omega
  | ⟨1, _⟩ =>
    show win0_0.index t (1 : Fin 3) * 3 + 1 * (((y 1).val + 2) % 3) = (win0_1.index t (1 : Fin 3) * 3 + 1 * (y 1).val + 2) % 3
    omega
  | ⟨2, _⟩ =>
    show win0_0.index t (2 : Fin 3) * 472392 + 1 * (y 2).val = win0_1.index t (2 : Fin 3) * 472392 + 1 * (y 2).val
    omega

/-- An index of the array is in a point's block iff each coordinate is in the block's range on its axis. -/
theorem mem_blk (t : Fin cfg0.N) (i : S27x3x472392.Idx) :
    i ∈ ((cfg0.win 1).blk t).view.set ↔ ∀ a : Fin 3, win0_1.index t a * S1x3x472392.size a ≤ (i a).val
      ∧ (i a).val < win0_1.index t a * S1x3x472392.size a + S1x3x472392.size a := by
  show i ∈ ((View.whole main_v1).slice (win0_1.rect t)).set ↔ _
  rw [View.set_slice_whole, Rect.mem_set_unit]
  exact Iff.rfl

/-- The slabs tile the array: the index (l, d, k) lies in the block of the point whose coordinate is l. -/
theorem cover (i : S27x3x472392.Idx) :
    ∃ t : Fin cfg0.N, (cfg0.win 1).flush t = true ∧ i ∈ ((cfg0.win 1).blk t).view.set := by
  have h0 : (i 0).val < 27 := (i 0).isLt
  have h1 : (i 1).val < 3 := (i 1).isLt
  have h2 : (i 2).val < 472392 := (i 2).isLt
  obtain ⟨t, ht⟩ := idx_onto ⟨(i 0).val, h0⟩
  have q0 : win0_1.index t (0 : Fin 3) = (i 0).val := congrFun ht 0
  have q1 : win0_1.index t (1 : Fin 3) = 0 := congrFun ht 1
  have q2 : win0_1.index t (2 : Fin 3) = 0 := congrFun ht 2
  refine ⟨t, flush0_1 t, ?_⟩
  rw [mem_blk]
  intro a
  match a with
  | ⟨0, _⟩ =>
    show win0_1.index t (0 : Fin 3) * 1 ≤ (i 0).val ∧ (i 0).val < win0_1.index t (0 : Fin 3) * 1 + 1
    omega
  | ⟨1, _⟩ =>
    show win0_1.index t (1 : Fin 3) * 3 ≤ (i 1).val ∧ (i 1).val < win0_1.index t (1 : Fin 3) * 3 + 3
    omega
  | ⟨2, _⟩ =>
    show win0_1.index t (2 : Fin 3) * 472392 ≤ (i 2).val ∧ (i 2).val < win0_1.index t (2 : Fin 3) * 472392 + 472392
    omega

/-- The array after the launch is `K` of the array the launch found. -/
theorem final (c : Dev nD) : (dats m 0 c).arrAt 1 cfg0.N = K (V m c main_v0) :=
  (dats m 0 c).arrAt_eq_of_cover 1 (K (V m c main_v0)) (fun t _ => flushed_eq m c t) cover

/-! ## The host's two changes of view -/

/-- The array the launch finds is the argument viewed with three axes. -/
theorem V_main_v0 (c : Dev nD) :
    (V m c main_v0 : S27x3x472392.Idx → Elt F .f32)
      = shapeCast S27x3x472392 (m ((c : Thread nD τ).loc main_arg0)) Facts₀.shapeCasts_S4782969x8_S27x3x472392 := by
  show StableHlo.after hostOps0 (fun b => m (c, b)) (Proc.devRef .tc main_v0) = _
  after_results
  rfl

/-- The kernel's result as one function of the argument: viewed with three axes, moved back, viewed as a matrix. -/
def result (x : S4782969x8.Idx → Elt F .f32) : S4782969x8.Idx → Elt F .f32 :=
  shapeCast S4782969x8 (K (shapeCast S27x3x472392 x Facts₀.shapeCasts_S4782969x8_S27x3x472392)) Facts₀.shapeCasts_S27x3x472392_S4782969x8

/-- The program's result buffer after the host's last line. -/
theorem tail_eq (c : Dev nD) :
    Pipeline.afterTail₀ cfgs (dats m) 0 (V0 m) [hostOps1] c main_v2 = result (m ((c : Thread nD τ).loc main_arg0)) := by
  unfold Pipeline.afterTail₀
  show StableHlo.after hostOps1 _ (Proc.devRef .tc main_v2) = _
  after_results
  unfold result
  rw [← V_main_v0 m c, ← final m c]
  exact congrArg (fun A => shapeCast S4782969x8 A Facts₀.shapeCasts_S27x3x472392_S4782969x8)
    (Pipeline.withArrays_arr spec0 launch0.win.arr_inj c _ _ 1)

/-- Every weakly fair execution of the kernel's program terminates with the result buffer at `result` of the
    argument and the argument unchanged. -/
theorem run : θ_run defs (onTc (τ := τ) (main (F := F))) ⟨m, fun _ => 0, ρ⟩ fun r => ∀ c : Dev nD,
      r.2.mem ((c : Thread nD τ).loc main_v2) = result (m ((c : Thread nD τ).loc main_arg0))
      ∧ r.2.mem ((c : Thread nD τ).loc main_arg0) = m ((c : Thread nD τ).loc main_arg0) :=
  (θ_run defs _ _).mono (fun _ h c =>
      ⟨((h c).2 main_v2 (Pipeline.mem_restRefs_of main_v2 (by decide) (by decide))).trans (tail_eq m c),
       ((h c).2 main_arg0 (Pipeline.mem_restRefs_of main_arg0 (by decide) (by decide))).trans (W_main_arg0 m (dats m) c)⟩)
    (run_main m ρ)

/-! ## The kernel's result is the specification -/

/-- Entry (r, b) of the matrix sits at row-major position n = r * 8 + b, which in the three-axis view is
    (n / 1417176, n / 472392 % 3, n % 472392); moving the middle coordinate back and returning to the matrix lands on
    the source row of r, column b. -/
theorem result_eq (x : S4782969x8.Idx → Elt F .f32) : result x = Cert.Roll.G x := by
  funext i
  have h0 : (i 0).val < 4782969 := (i 0).isLt
  have h1 : (i 1).val < 8 := (i 1).isLt
  unfold result
  refine (shapeCast_apply _ Facts₀.shapeCasts_S27x3x472392_S4782969x8 i
    (ix3 (⟨((i 0).val * 8 + (i 1).val) / 1417176, by omega⟩ : Fin 27)
      (⟨((i 0).val * 8 + (i 1).val) / 472392 % 3, by omega⟩ : Fin 3)
      (⟨((i 0).val * 8 + (i 1).val) % 472392, by omega⟩ : Fin 472392))
    (by
      rw [Shape.rowMajor_val_three, Shape.rowMajor_val_two]
      show (((i 0).val * 8 + (i 1).val) / 1417176 * 3 + ((i 0).val * 8 + (i 1).val) / 472392 % 3) * 472392
          + ((i 0).val * 8 + (i 1).val) % 472392 = (i 0).val * 8 + (i 1).val
      omega)).trans ?_
  unfold K
  refine (shapeCast_apply x Facts₀.shapeCasts_S4782969x8_S27x3x472392 _ (Cert.Roll.src i)
    (by
      rw [Shape.rowMajor_val_two, Shape.rowMajor_val_three]
      show Cert.Roll.srcRow (i 0).val * 8 + (i 1).val
          = (((i 0).val * 8 + (i 1).val) / 1417176 * 3 + (((i 0).val * 8 + (i 1).val) / 472392 % 3 + 2) % 3) * 472392
            + ((i 0).val * 8 + (i 1).val) % 472392
      unfold Cert.Roll.srcRow
      omega)).trans ?_
  rfl

end Cert.KernelIdeal.KValue

end
-- ==== Proof.lean ====
/-
  The claim: a cyclic shift of one base-3 digit of the row number, done two ways.

  The argument is a matrix of 3^14 rows and 8 columns. Both programs return the matrix whose row
  r = l * 177147 + d * 59049 + q (l < 27, d < 3, q < 59049) is the argument's row l * 177147 + ((d + 2) % 3) * 59049 + q,
  that is, with the digit of weight 3^10 moved one step back cyclically (Proof/RollSpec.lean). The reference views
  the argument with four axes 27 × 3 × 59049 × 8, joins the plane d = 2 in front of the planes d = 0, 1 and views the
  outcome as a matrix (Proof/RefValue.lean). The kernel views it with three axes 27 × 3 × 472392, copies, slab by
  slab, row 2 to row 0, row 0 to row 1 and row 1 to row 2, and views the outcome as a matrix (Proof/KernelValue.lean).
  Neither program does arithmetic on an entry, so the two results agree entry by entry whatever the entries are: the
  precondition that the entries be finite is not used. The idealization rewrote no operation, so that conjunct is
  the true proposition.
-/
import proofs.«109570_j6992206758256_1_alg».proof.Defs
import proofs.«109570_j6992206758256_1_alg».proof.Proof.Gen.Kernel
import proofs.«109570_j6992206758256_1_alg».proof.Proof.Gen.Kernel.Skeleton
import proofs.«109570_j6992206758256_1_alg».proof.Proof.Gen.Kernel.Launch
import proofs.«109570_j6992206758256_1_alg».proof.Proof.Gen.Kernel.Points
import proofs.«109570_j6992206758256_1_alg».proof.Proof.Gen.Kernel.Frame
import proofs.«109570_j6992206758256_1_alg».proof.Proof.Gen.KernelIdeal
import proofs.«109570_j6992206758256_1_alg».proof.Proof.Gen.KernelIdeal.Skeleton
import proofs.«109570_j6992206758256_1_alg».proof.Proof.Gen.KernelIdeal.Launch
import proofs.«109570_j6992206758256_1_alg».proof.Proof.Gen.KernelIdeal.Points
import proofs.«109570_j6992206758256_1_alg».proof.Proof.Gen.KernelIdeal.Frame
import proofs.«109570_j6992206758256_1_alg».proof.Proof.Gen.ReferenceIdeal
import proofs.«109570_j6992206758256_1_alg».proof.Proof.Gen.ReferenceIdeal.Run
import proofs.«109570_j6992206758256_1_alg».proof.Proof.Gen.ReferenceIdeal.Read
import proofs.«109570_j6992206758256_1_alg».proof.Proof.Gen.Pre_finite_inputs
import proofs.«109570_j6992206758256_1_alg».proof.Proof.RollSpec
import proofs.«109570_j6992206758256_1_alg».proof.Proof.RefValue
import proofs.«109570_j6992206758256_1_alg».proof.Proof.KernelValue
import Idealize.ShloMosaic.Adequacy
import Idealize.ShloMosaic.Init

noncomputable section

namespace Cert.Proof

open Idealize.ShloMosaic Idealize.ShloMosaic.TcCoe Idealize.SL.Sem

/-- The kernel's program as printed terminates, faults nowhere and keeps its argument. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten on the way to the idealization: nothing to preserve. -/
theorem preserves : Cert.preserves_Kernel_KernelIdeal := trivial

/-- From memories agreeing on the argument both programs end with the result buffer at the specification of that
    argument: the kernel's by its run and `KValue.result_eq`, the reference's by its run and `RefValue.result_eq`. -/
theorem algebraic : Cert.algebraic_KernelIdeal_ReferenceIdeal := by
  intro m ρ m' ρ' _ hagree
  refine ⟨fun c => Cert.Roll.G (m ((c.tc : Thread Cert.KernelIdeal.nD Cert.KernelIdeal.τ).loc Cert.KernelIdeal.main_arg0)), ?_, ?_⟩
  · exact (θ_run Cert.KernelIdeal.defs _ _).mono
      (fun _ h c => ⟨(h c).1.trans (Cert.KernelIdeal.KValue.result_eq _), (h c).2⟩)
      (Cert.KernelIdeal.KValue.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v2_eq, Cert.ReferenceIdeal.RefValue.result_eq, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
